-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  main_v51

def fn_part2 {F : FTy → Type} [FloatOps F] (main_arg9 : FVec F S128x64 .f32) (main_arg10 : FVec F S64 .f32) (main_arg11 : FVec F S_ .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128x64 .f32 := Host.absf main_arg9
  let main_cst_14 : FVec F S_ .f32 := constant S_ .f32 0x7F800000#32
  let main_v39 : FVec F S128x64 .f32 := broadcastInDim S128x64 ![] bcast_S_S128x64 main_cst_14
  let main_v40 : IVec S128x64 1 := cmpf .olt main_v38 main_v39
  let main_c_15 : IVec S_ 1 := constantI S_ 1 1#1
  let main_v41 : IVec S_ 1 := (fun x v => Host.reduce IntOp.andi x v reducesTo_S128x64_S_d0_1 h_S_) main_v40 main_c_15
  let main_v42 : IVec S_ 1 := andi main_v37 main_v41
  let main_v43 : FVec F S64 .f32 := Host.absf main_arg10
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S_ .f32 := Host.absf main_arg11
  let main_cst_18 : FVec F S_ .f32 := constant S_ .f32 0x7F800000#32
  let main_v49 : IVec S_ 1 := cmpf .olt main_v48 main_cst_18
  let main_c_19 : IVec S_ 1 := constantI S_ 1 1#1
  fn_part3 (F := F) main_v47 main_v49 main_c_19

def fn_part1 {F : FTy → Type} [FloatOps F] (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S_ .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x64 .f32 := Host.absf main_arg5
  let main_cst_6 : FVec F S_ .f32 := constant S_ .f32 0x7F800000#32
  let main_v19 : FVec F S128x64 .f32 := broadcastInDim S128x64 ![] bcast_S_S128x64 main_cst_6
  let main_v20 : IVec S128x64 1 := cmpf .olt main_v18 main_v19
  let main_c_7 : IVec S_ 1 := constantI S_ 1 1#1
  let main_v21 : IVec S_ 1 := (fun x v => Host.reduce IntOp.andi x v reducesTo_S128x64_S_d0_1 h_S_) main_v20 main_c_7
  let main_v22 : IVec S_ 1 := andi main_v17 main_v21
  let main_v23 : FVec F S64 .f32 := Host.absf main_arg6
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S128x128 .f32 := Host.absf main_arg7
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128 .f32 := Host.absf main_arg8
  fn_part2 (F := F) main_arg9 main_arg10 main_arg11 main_v32 main_v33

def fn {F : FTy → Type} [FloatOps F] (main_arg0 : FVec F S100000x128 .f32) (main_arg1 : IVec S2x1600000 32) (main_arg2 : FVec F S_ .f32) (main_arg3 : FVec F S128x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg5 main_arg6 main_arg7 main_arg8 main_arg9 main_arg10 main_arg11 main_v12 main_v15 main_c_5
-- ==== Kernel.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S1x64 : Shape := ⟨2, ![1, 64]⟩
abbrev S100000x64 : Shape := ⟨2, ![100000, 64]⟩
abbrev S5000x64 : Shape := ⟨2, ![5000, 64]⟩
abbrev S1700000x64 : Shape := ⟨2, ![1700000, 64]⟩
abbrev S1x1 : Shape := ⟨2, ![1, 1]⟩

abbrev nBuf : Space → Nat
  | .hbm => 97
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1x1, .f32⟩
  | .hbm, ⟨95, _⟩ => ⟨S1x64, .f32⟩
  | .hbm, ⟨96, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S128x64, .f32⟩
  | .local _ .vmem, ⟨13, _⟩ => ⟨S5000x128, .f32⟩
  | .local _ .vmem, ⟨14, _⟩ => ⟨S5000x128, .f32⟩
  | .local _ .vmem, ⟨15, _⟩ => ⟨S128x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S1x1, .f32⟩
  | .local _ .vmem, ⟨27, _⟩ => ⟨S5000x64, .f32⟩
  | .local _ .vmem, ⟨28, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S5000x64_S5000x64 : S5000x64.ShapeCasts S5000x64
  broadcasts_S1x1_S5000x64 : S1x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S_ : Shape := ⟨0, ![]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S_, .f32⟩
  | .hbm, ⟨113, _⟩ => ⟨S100000x64, .f32⟩
  | .hbm, ⟨114, _⟩ => ⟨S100000x64, .f32⟩
  | .hbm, ⟨115, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call1_cst : Ref sig .tc := ⟨.hbm, 92, rfl⟩
abbrev main_call1_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program, run from any launch memory: every weakly fair execution ends, nothing faults, and in
  the final state the result array holds what the last region's write-backs leave in it — the contents of the
  program's last boundary, read at the result buffer — while every argument array is as launched.

  The program is three kernel regions among stretches of host operations. Its contents at each boundary are a fold
  from the launch memory: a stretch applies its operations, a region replaces its windows' arrays by what its
  pipeline leaves. The final state is that fold's last value at every unscoped buffer; here it is read at the result
  buffer as well as at the arguments.
-/
import proofs.«112460_j24481313587799_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v67) = W6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v67 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.Spec.lean ====
/-
  The three kernels' results as whole-array functions, index by index, over the extended reals.

  Every array has its rows on axis 0. Writing  x·W  for the matrix product
      (x·W)(r, c) = Σ over k of x(r, k) · W(k, c),
  the first kernel produces  x·Wg1  and  max(x·Wm1 + bm1, 0);  the second, from the aggregated first layer  a  and
  the hidden layer  h,  produces  max(a + bg1, 0)·Wg2  and  h·Wm2 + bm2;  the third blends the aggregated second
  layer  a'  with the other branch  z  by the gate  β:   β·(a' + bg2) + (1 − β)·z.
  A bias arrives as a one-row array and is read at row 0; the gate as a one-by-one array.
-/
import Idealize.ShloMosaic.Lib.ValueIdx
import Idealize.ShloMosaic.PureOps.Ideal

noncomputable section

namespace Cert.Spec

open Idealize.ShloMosaic Idealize.ShloMosaic.ValueIdx

/-- The zero and the one the programs write as float words. -/
abbrev zero : Ideal .f32 := Ideal.ofBits .f32 0x00000000#32
abbrev one : Ideal .f32 := Ideal.ofBits .f32 0x3F800000#32

/-- The matrix product of an M×K array by a K×N array, at an output index. -/
def mm (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

/-- A product plus a one-row bias, then the positive part. -/
def mmBiasRelu (M K N : Nat) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => FloatOps.maximumf (F := Ideal) (φ := .f32) (FloatOps.addf (F := Ideal) (φ := .f32) (mm M K N x w j) (b (ix2 0 (j 1)))) zero

/-- The positive part of an array plus a one-row bias, times a matrix. -/
def biasReluMm (M K N : Nat) (a : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  fun j => ∑ k : Fin K, FloatOps.maximumf (F := Ideal) (φ := .f32) (FloatOps.addf (F := Ideal) (φ := .f32) (a (ix2 (j 0) k)) (b (ix2 0 k))) zero * w (ix2 k (j 1))

/-- A product plus a one-row bias. -/
def mmBias (M K N : Nat) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => FloatOps.addf (F := Ideal) (φ := .f32) (mm M K N x w j) (b (ix2 0 (j 1)))

/-- The gated blend  β·(a + b) + (1 − β)·z. -/
def blend (M N : Nat) (a : (⟨2, ![M, N]⟩ : Shape).Idx → EReal) (b : (⟨2, ![1, N]⟩ : Shape).Idx → EReal)
    (z : (⟨2, ![M, N]⟩ : Shape).Idx → EReal) (β : (⟨2, ![1, 1]⟩ : Shape).Idx → EReal) : (⟨2, ![M, N]⟩ : Shape).Idx → EReal :=
  fun j => FloatOps.addf (F := Ideal) (φ := .f32)
    (FloatOps.mulf (F := Ideal) (φ := .f32) (β (ix2 0 0)) (FloatOps.addf (F := Ideal) (φ := .f32) (a j) (b (ix2 0 (j 1)))))
    (FloatOps.mulf (F := Ideal) (φ := .f32) (FloatOps.subf (F := Ideal) (φ := .f32) one (β (ix2 0 0))) (z j))

end Cert.Spec

end
-- ==== Proof.Payload.lean ====
/-
  Each kernel body's arithmetic, read at one index of its output block.

  A body loads whole blocks, computes, and stores whole blocks. Over the extended reals a change of float format is
  the identity and a block product into a zero accumulator is the plain sum over the contracted coordinate, so at the
  block index (p, q):
    first kernel    stores   Σ_k x(p,k)·Wg1(k,q)   and   max(Σ_k x(p,k)·Wm1(k,q) + bm1(0,q), 0);
    second kernel   stores   Σ_k max(a(p,k) + bg1(0,k), 0)·Wg2(k,q)   and   Σ_k h(p,k)·Wm2(k,q) + bm2(0,q);
    third kernel    stores   β(0,0)·(a'(p,q) + bg2(0,q)) + (1 − β(0,0))·z(p,q).
-/
import proofs.«112460_j24481313587799_1_alg».proof.Proof.Gen.KernelIdeal.Skeleton
import proofs.«112460_j24481313587799_1_alg».proof.Proof.LibPlainDot
import proofs.«112460_j24481313587799_1_alg».proof.Proof.Spec
import Idealize.ShloMosaic.Lib.Pipeline.Value
import Idealize.ShloMosaic.Lib.ValueLayout

noncomputable section

namespace Cert.KernelIdeal.Payload

open Cert.KernelIdeal Cert.KernelIdeal.Gen Cert.Spec
open Idealize.ShloMosaic Idealize.ShloMosaic.ValueIdx

/-- A one-by-one array broadcast to any two-axis shape reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The first kernel's first store: the block product  x·Wg1. -/
theorem pay_dense1_gcn (v0 : Vec Ideal S5000x128 .f32) (v2 : Vec Ideal S128x128 .f32) (p : Fin 5000) (q : Fin 128) :
    k0_pay2 (F := Ideal) v0 v2 (ix2 p q) = ∑ k : Fin 128, v0 (ix2 p k) * v2 (ix2 k q) := by
  unfold k0_pay2 k0_pay1
  exact Cert.LibPlainDot.matmul_zero_plain 5000 128 128 none v0 v2 (ix2 p q)

/-- The first kernel's second store: the positive part of  x·Wm1 + bm1. -/
theorem pay_dense1_mlp (v0 : Vec Ideal S5000x128 .f32) (v6 : Vec Ideal S128x128 .f32) (v9 : Vec Ideal S1x128 .f32)
    (p : Fin 5000) (q : Fin 128) :
    k0_pay3 (F := Ideal) v0 v6 v9 (ix2 p q)
      = FloatOps.maximumf (F := Ideal) (φ := .f32) (FloatOps.addf (F := Ideal) (φ := .f32) (∑ k : Fin 128, v0 (ix2 p k) * v6 (ix2 k q)) (v9 (ix2 (0 : Fin 1) q))) zero := by
  unfold k0_pay3 k0_pay1
  exact congrArg₂ (fun a b => FloatOps.maximumf (F := Ideal) (φ := .f32) (FloatOps.addf (F := Ideal) (φ := .f32) a b) zero)
    (Cert.LibPlainDot.matmul_zero_plain 5000 128 128 none v0 v6 (ix2 p q))
    ((congrArg (fun w => broadcastTo S5000x128 w broadcasts_S1x128_S5000x128 (ix2 p q)) (shapeCast_self v9 shapeCasts_S1x128_S1x128)).trans
      (broadcastTo_1b_ab_apply v9 broadcasts_S1x128_S5000x128 p q))

/-- The row of the second kernel's left operand: the positive part of  a + bg1. -/
def reluRow (v0 : Vec Ideal S5000x128 .f32) (v2 : Vec Ideal S1x128 .f32) : FVec Ideal S5000x128 .f32 :=
  maximumf (addf (shapeCast S5000x128 v0 shapeCasts_S5000x128_S5000x128) (broadcastTo S5000x128 (shapeCast S1x128 v2 shapeCasts_S1x128_S1x128) broadcasts_S1x128_S5000x128))
    (broadcast S5000x128 (Scalar.ofBits .f32 0x00000000#32))

theorem reluRow_apply (v0 : Vec Ideal S5000x128 .f32) (v2 : Vec Ideal S1x128 .f32) (p : Fin 5000) (k : Fin 128) :
    reluRow v0 v2 (ix2 p k) = FloatOps.maximumf (F := Ideal) (φ := .f32) (FloatOps.addf (F := Ideal) (φ := .f32) (v0 (ix2 p k)) (v2 (ix2 (0 : Fin 1) k))) zero := by
  unfold reluRow
  exact congrArg₂ (fun a b => FloatOps.maximumf (F := Ideal) (φ := .f32) (FloatOps.addf (F := Ideal) (φ := .f32) a b) zero)
    (congrFun (shapeCast_self v0 shapeCasts_S5000x128_S5000x128) (ix2 p k))
    ((congrArg (fun w => broadcastTo S5000x128 w broadcasts_S1x128_S5000x128 (ix2 p k)) (shapeCast_self v2 shapeCasts_S1x128_S1x128)).trans
      (broadcastTo_1b_ab_apply v2 broadcasts_S1x128_S5000x128 p k))

/-- The second kernel's first store: the positive part of  a + bg1,  times  Wg2. -/
theorem pay_dense2_gcn (v0 : Vec Ideal S5000x128 .f32) (v2 : Vec Ideal S1x128 .f32) (v9 : Vec Ideal S128x64 .f32)
    (p : Fin 5000) (q : Fin 64) :
    k1_pay1 (F := Ideal) v0 v2 v9 (ix2 p q)
      = ∑ k : Fin 128, FloatOps.maximumf (F := Ideal) (φ := .f32) (FloatOps.addf (F := Ideal) (φ := .f32) (v0 (ix2 p k)) (v2 (ix2 (0 : Fin 1) k))) zero * v9 (ix2 k q) := by
  unfold k1_pay1
  have h := Cert.LibPlainDot.matmul_zero_plain (φ₁ := .bf16) (φ₂ := .bf16) 5000 128 64 none (reluRow v0 v2) v9 (ix2 p q)
  exact h.trans (Finset.sum_congr rfl fun k _ => congrArg (· * v9 (ix2 k q)) (reluRow_apply v0 v2 p k))

/-- The second kernel's second store:  h·Wm2 + bm2. -/
theorem pay_dense2_mlp (v13 : Vec Ideal S5000x128 .f32) (v16 : Vec Ideal S128x64 .f32) (v19 : Vec Ideal S1x64 .f32)
    (p : Fin 5000) (q : Fin 64) :
    k1_pay2 (F := Ideal) v13 v16 v19 (ix2 p q)
      = FloatOps.addf (F := Ideal) (φ := .f32) (∑ k : Fin 128, v13 (ix2 p k) * v16 (ix2 k q)) (v19 (ix2 (0 : Fin 1) q)) := by
  unfold k1_pay2
  exact congrArg₂ (fun a b => FloatOps.addf (F := Ideal) (φ := .f32) a b)
    ((congrArg (fun w => FloatOps.matmul (F := Ideal) (DotDims.plain 5000 128 64) none (φ₁ := .bf16) (φ₂ := .bf16) w v16 (constant S5000x64 .f32 0x00000000#32) (ix2 p q))
        (shapeCast_self v13 shapeCasts_S5000x128_S5000x128)).trans
      (Cert.LibPlainDot.matmul_zero_plain 5000 128 64 none v13 v16 (ix2 p q)))
    ((congrArg (fun w => broadcastTo S5000x64 w broadcasts_S1x64_S5000x64 (ix2 p q)) (shapeCast_self v19 shapeCasts_S1x64_S1x64)).trans
      (broadcastTo_1b_ab_apply v19 broadcasts_S1x64_S5000x64 p q))

/-- The third kernel's store: the gated blend. -/
theorem pay_fuse (v0 : Vec Ideal S1x1 .f32) (v2 : Vec Ideal S5000x64 .f32) (v4 : Vec Ideal S1x64 .f32) (v12 : Vec Ideal S5000x64 .f32)
    (p : Fin 5000) (q : Fin 64) :
    k2_pay1 (F := Ideal) v0 v2 v4 v12 (ix2 p q)
      = FloatOps.addf (F := Ideal) (φ := .f32)
          (FloatOps.mulf (F := Ideal) (φ := .f32) (v0 (ix2 (0 : Fin 1) (0 : Fin 1))) (FloatOps.addf (F := Ideal) (φ := .f32) (v2 (ix2 p q)) (v4 (ix2 (0 : Fin 1) q))))
          (FloatOps.mulf (F := Ideal) (φ := .f32) (FloatOps.subf (F := Ideal) (φ := .f32) one (v0 (ix2 (0 : Fin 1) (0 : Fin 1)))) (v12 (ix2 p q))) := by
  unfold k2_pay1
  simp only [shapeCast_self]
  show FloatOps.addf (F := Ideal) (φ := .f32)
      (FloatOps.mulf (F := Ideal) (φ := .f32) (broadcastTo S5000x64 v0 broadcasts_S1x1_S5000x64 (ix2 p q))
        (FloatOps.addf (F := Ideal) (φ := .f32) (v2 (ix2 p q)) (broadcastTo S5000x64 v4 broadcasts_S1x64_S5000x64 (ix2 p q))))
      (FloatOps.mulf (F := Ideal) (φ := .f32)
        (broadcastTo S5000x64 (subf (broadcast S1x1 (Scalar.ofBits (F := Ideal) .f32 0x3F800000#32)) v0) broadcasts_S1x1_S5000x64 (ix2 p q))
        (v12 (ix2 p q))) = _
  rw [broadcastTo_11_ab_apply v0, broadcastTo_1b_ab_apply v4, broadcastTo_11_ab_apply]
  rfl

end Cert.KernelIdeal.Payload

end
-- ==== Proof.Region0.lean ====
/-
  The first kernel region, read as values: whatever arrays the region finds at its entry, its two output arrays end
  holding  x·Wg1  and  max(x·Wm1 + bm1, 0),  index by index, where x, Wg1, Wm1 and the one-row bm1 are the entry
  contents of its four input arrays.

  The grid has 20 points. At point t the row-blocked windows (x and the two outputs) sit at rows 5000·t … 5000·t + 4999
  and all 128 columns; the weight and bias windows are their whole arrays at every point. So the element (p, q) of the
  block written back at point t is the body's arithmetic on row 5000·t + p of x, and it lands at array index
  (5000·t + p, q): every written block is the restriction of one whole-array function, and the 20 blocks cover the array.
-/
import proofs.«112460_j24481313587799_1_alg».proof.Proof.Gen.KernelIdeal.Frame
import proofs.«112460_j24481313587799_1_alg».proof.Proof.Payload
import proofs.«112460_j24481313587799_1_alg».proof.Proof.Spec
import Idealize.ShloMosaic.Lib.Pipeline.Value

set_option maxRecDepth 16384

noncomputable section

namespace Cert.KernelIdeal.Region0

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: a row-blocked window is at block row t, every other block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := Nat.lt_of_lt_of_eq t.isLt N_0

/-- The block of x at point t, at (p, k): row 5000·t + p of the array. -/
theorem read_x (c : Dev nD) (t : Fin cfg0.N) (p : Fin 5000) (k : Fin 128) (r : Fin 100000) (hr : r.val = t.val * 5000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, e2, e3, e4, e5, e6, e7, e8, e9, e10, e11⟩ := index_facts t
  match a with
  | ⟨0, _⟩ => show win0_0.index t (0 : Fin 2) * 5000 + 1 * p.val = r.val; omega
  | ⟨1, _⟩ => show win0_0.index t (1 : Fin 2) * 128 + 1 * k.val = k.val; omega

/-- The block of Wg1 at any point is the whole array. -/
theorem read_wg1 (c : Dev nD) (t : Fin cfg0.N) (k : Fin 128) (q : Fin 128) :
    iblk0 V c 1 t (ix2 k q) = V c main_arg3 (ix2 k q) := by
  show V c main_arg3 (((cfg0.win 1).blk t).view.emb (ix2 k q)) = V c main_arg3 (ix2 k q)
  refine congrArg (V c main_arg3) (funext fun a => Fin.ext ?_)
  obtain ⟨e0, e1, e2, e3, e4, e5, e6, e7, e8, e9, e10, e11⟩ := index_facts t
  match a with
  | ⟨0, _⟩ => show win0_1.index t (0 : Fin 2) * 128 + 1 * k.val = k.val; omega
  | ⟨1, _⟩ => show win0_1.index t (1 : Fin 2) * 128 + 1 * q.val = q.val; omega

/-- The block of Wm1 at any point is the whole array. -/
theorem read_wm1 (c : Dev nD) (t : Fin cfg0.N) (k : Fin 128) (q : Fin 128) :
    iblk0 V c 2 t (ix2 k q) = V c main_arg7 (ix2 k q) := by
  show V c main_arg7 (((cfg0.win 2).blk t).view.emb (ix2 k q)) = V c main_arg7 (ix2 k q)
  refine congrArg (V c main_arg7) (funext fun a => Fin.ext ?_)
  obtain ⟨e0, e1, e2, e3, e4, e5, e6, e7, e8, e9, e10, e11⟩ := index_facts t
  match a with
  | ⟨0, _⟩ => show win0_2.index t (0 : Fin 2) * 128 + 1 * k.val = k.val; omega
  | ⟨1, _⟩ => show win0_2.index t (1 : Fin 2) * 128 + 1 * q.val = q.val; omega

/-- The block of the one-row bias at any point is the whole array. -/
theorem read_bm1 (c : Dev nD) (t : Fin cfg0.N) (u : Fin 1) (q : Fin 128) :
    iblk0 V c 3 t (ix2 u q) = V c main_v27 (ix2 u q) := by
  show V c main_v27 (((cfg0.win 3).blk t).view.emb (ix2 u q)) = V c main_v27 (ix2 u q)
  refine congrArg (V c main_v27) (funext fun a => Fin.ext ?_)
  obtain ⟨e0, e1, e2, e3, e4, e5, e6, e7, e8, e9, e10, e11⟩ := index_facts t
  match a with
  | ⟨0, _⟩ => show win0_3.index t (0 : Fin 2) * 1 + 1 * u.val = u.val; omega
  | ⟨1, _⟩ => show win0_3.index t (1 : Fin 2) * 128 + 1 * q.val = q.val; omega

/-! ## The first output:  x·Wg1 -/

/-- Where element (p, q) of the block written at point t lands in the array. -/
theorem emb_out4 (t : Fin cfg0.N) (p : Fin 5000) (q : Fin 128) (r : Fin 100000) (hr : r.val = t.val * 5000 + p.val) :
    ((cfg0.win 4).blk t).view.emb (ix2 p q) = ix2 r q := by
  refine funext fun a => Fin.ext ?_
  obtain ⟨e0, e1, e2, e3, e4, e5, e6, e7, e8, e9, e10, e11⟩ := index_facts t
  match a with
  | ⟨0, _⟩ => show win0_4.index t (0 : Fin 2) * 5000 + 1 * p.val = r.val; omega
  | ⟨1, _⟩ => show win0_4.index t (1 : Fin 2) * 128 + 1 * q.val = q.val; omega

/-- What point t writes back is its block of the whole-array product. -/
theorem flushed4_eq (c : Dev nD) (t : Fin cfg0.N) :
    (dat0 (F := Ideal) V c).flushed 4 t
      = ((cfg0.win 4).blk t).view.read (Elt Ideal) (mm 100000 128 128 (V c main_arg0) (V c main_arg3)) := by
  show (cfg0.win 4).cut (grid0.coords t) ((dat0 (F := Ideal) V c).after 4 t) = _
  rw [after0_4]
  unfold out0_4
  rw [View.canon_unit_zero zeros]
  simp only [View.ld_unit_zero (S := S5000x128) zeros, View.ld_unit_zero (S := S128x128) zeros]
  funext j
  obtain ⟨p, q, rfl⟩ : ∃ (p : Fin 5000) (q : Fin 128), j = ix2 p q := ⟨j 0, j 1, eq_ix2 j⟩
  have ht := point_lt t
  have hemb := emb_out4 t p q ⟨t.val * 5000 + p.val, by have := p.isLt; omega⟩ rfl
  show k0_pay2 (F := Ideal) (iblk0 V c 0 t) (iblk0 V c 1 t) (ix2 p q)
    = mm 100000 128 128 (V c main_arg0) (V c main_arg3) (((cfg0.win 4).blk t).view.emb (ix2 p q))
  rw [hemb]
  refine (pay_dense1_gcn (iblk0 V c 0 t) (iblk0 V c 1 t) p q).trans ?_
  exact Finset.sum_congr rfl fun k _ => congrArg₂ (· * ·) (read_x V c t p k _ rfl) (read_wg1 V c t k q)

/-- An index of the array is in point t's block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28_0).slice (win0_4.rect t)).set ↔ _
  rw [View.set_slice_whole, Rect.mem_set_unit]
  exact Iff.rfl

/-- Row r is covered by the point r / 5000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by rw [show cfg0.N = 20 from N_0]; omega
  obtain ⟨e0, e1, e2, e3, e4, e5, e6, e7, e8, e9, e10, e11⟩ := index_facts ⟨(i 0).val / 5000, hN⟩
  refine ⟨⟨(i 0).val / 5000, hN⟩, flush0_4 _, ?_⟩
  rw [mem_blk4]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val ∧ (i 1).val < win0_4.index ⟨(i 0).val / 5000, hN⟩ (1 : Fin 2) * 128 + 128
    rw [e9]; omega

/-- The first output array after the region:  x·Wg1  of the entry arrays. -/
theorem out4 (c : Dev nD) :
    (dat0 (F := Ideal) V c).arrAt 4 cfg0.N = mm 100000 128 128 (V c main_arg0) (V c main_arg3) :=
  (dat0 (F := Ideal) V c).arrAt_eq_of_cover 4 _ (fun t _ => flushed4_eq V c t) cover4

/-! ## The second output:  max(x·Wm1 + bm1, 0) -/

/-- Where element (p, q) of the block written at point t lands in the array. -/
theorem emb_out5 (t : Fin cfg0.N) (p : Fin 5000) (q : Fin 128) (r : Fin 100000) (hr : r.val = t.val * 5000 + p.val) :
    ((cfg0.win 5).blk t).view.emb (ix2 p q) = ix2 r q := by
  refine funext fun a => Fin.ext ?_
  obtain ⟨e0, e1, e2, e3, e4, e5, e6, e7, e8, e9, e10, e11⟩ := index_facts t
  match a with
  | ⟨0, _⟩ => show win0_5.index t (0 : Fin 2) * 5000 + 1 * p.val = r.val; omega
  | ⟨1, _⟩ => show win0_5.index t (1 : Fin 2) * 128 + 1 * q.val = q.val; omega

/-- What point t writes back is its block of the whole-array function. -/
theorem flushed5_eq (c : Dev nD) (t : Fin cfg0.N) :
    (dat0 (F := Ideal) V c).flushed 5 t
      = ((cfg0.win 5).blk t).view.read (Elt Ideal) (mmBiasRelu 100000 128 128 (V c main_arg0) (V c main_arg7) (V c main_v27)) := by
  show (cfg0.win 5).cut (grid0.coords t) ((dat0 (F := Ideal) V c).after 5 t) = _
  rw [after0_5]
  unfold out0_5
  rw [View.canon_unit_zero zeros]
  simp only [View.ld_unit_zero (S := S5000x128) zeros, View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  have ht := point_lt t
  have hemb := emb_out5 t p q ⟨t.val * 5000 + p.val, by have := p.isLt; omega⟩ rfl
  show k0_pay3 (F := Ideal) (iblk0 V c 0 t) (iblk0 V c 2 t) (iblk0 V c 3 t) (ix2 p q)
    = (mmBiasRelu 100000 128 128 (V c main_arg0) (V c main_arg7) (V c main_v27)) (((cfg0.win 5).blk t).view.emb (ix2 p q))
  rw [hemb]
  refine (pay_dense1_mlp (iblk0 V c 0 t) (iblk0 V c 2 t) (iblk0 V c 3 t) p q).trans ?_
  exact congrArg₂ (fun a b => FloatOps.maximumf (F := Ideal) (φ := .f32) (FloatOps.addf (F := Ideal) (φ := .f32) a b) zero)
    (Finset.sum_congr rfl fun k _ => congrArg₂ (· * ·) (read_x V c t p k _ rfl) (read_wm1 V c t k q))
    (read_bm1 V c t 0 q)

/-- An index of the array is in point t's block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28_1).slice (win0_5.rect t)).set ↔ _
  rw [View.set_slice_whole, Rect.mem_set_unit]
  exact Iff.rfl

/-- Row r is covered by the point r / 5000. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  obtain ⟨e0, e1, e2, e3, e4, e5, e6, e7, e8, e9, e10, e11⟩ := index_facts ⟨(i 0).val / 5000, hN⟩
  refine ⟨⟨(i 0).val / 5000, hN⟩, flush0_5 _, ?_⟩
  rw [mem_blk5]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e10]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e11]; omega

/-- The output array after the region, as one function of the entry arrays. -/
theorem out5 (c : Dev nD) :
    (dat0 (F := Ideal) V c).arrAt 5 cfg0.N = mmBiasRelu 100000 128 128 (V c main_arg0) (V c main_arg7) (V c main_v27) :=
  (dat0 (F := Ideal) V c).arrAt_eq_of_cover 5 _ (fun t _ => flushed5_eq V c t) cover5

end Cert.KernelIdeal.Region0

end
-- ==== Proof.Region1.lean ====
/-
  The second kernel region, read as values: whatever arrays the region finds at its entry, its two output arrays end
  holding  max(a + bg1, 0)·Wg2  and  h·Wm2 + bm2,  index by index, where a (the aggregated first layer), h (the hidden
  layer), the weights Wg2, Wm2 and the one-row biases bg1, bm2 are the entry contents of its six input arrays.

  The grid has 20 points; at point t the row-blocked windows (a, h and the two outputs) sit at rows
  5000·t … 5000·t + 4999, the weight and bias windows are their whole arrays. Each written block is the restriction of
  one whole-array function, and the 20 blocks cover the array.
-/
import proofs.«112460_j24481313587799_1_alg».proof.Proof.Gen.KernelIdeal.Frame
import proofs.«112460_j24481313587799_1_alg».proof.Proof.Payload
import proofs.«112460_j24481313587799_1_alg».proof.Proof.Spec
import Idealize.ShloMosaic.Lib.Pipeline.Value

set_option maxRecDepth 16384

noncomputable section

namespace Cert.KernelIdeal.Region1

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: a row-blocked window is at block row t, every other block index is 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 20 := Nat.lt_of_lt_of_eq t.isLt N_1

/-- The block of the aggregated layer at point t, at (p, k): row 5000·t + p of the array. -/
theorem read_a (c : Dev nD) (t : Fin cfg1.N) (p : Fin 5000) (k : Fin 128) (r : Fin 100000) (hr : r.val = t.val * 5000 + p.val) :
    iblk1 V c 0 t (ix2 p k) = V c main_v41 (ix2 r k) := by
  show V c main_v41 (((cfg1.win 0).blk t).view.emb (ix2 p k)) = V c main_v41 (ix2 r k)
  refine congrArg (V c main_v41) (funext fun a => Fin.ext ?_)
  obtain ⟨e0, e1, e2, e3, e4, e5, e6, e7, e8, e9, e10, e11, e12, e13, e14, e15⟩ := index_facts t
  match a with
  | ⟨0, _⟩ => show win1_0.index t (0 : Fin 2) * 5000 + 1 * p.val = r.val; omega
  | ⟨1, _⟩ => show win1_0.index t (1 : Fin 2) * 128 + 1 * k.val = k.val; omega
/-- The block of the one-row bias bg1 at any point is the whole array. -/
theorem read_bg1 (c : Dev nD) (t : Fin cfg1.N) (k : Fin 1) (q : Fin 128) :
    iblk1 V c 1 t (ix2 k q) = V c main_v42 (ix2 k q) := by
  show V c main_v42 (((cfg1.win 1).blk t).view.emb (ix2 k q)) = V c main_v42 (ix2 k q)
  refine congrArg (V c main_v42) (funext fun a => Fin.ext ?_)
  obtain ⟨e0, e1, e2, e3, e4, e5, e6, e7, e8, e9, e10, e11, e12, e13, e14, e15⟩ := index_facts t
  match a with
  | ⟨0, _⟩ => show win1_1.index t (0 : Fin 2) * 1 + 1 * k.val = k.val; omega
  | ⟨1, _⟩ => show win1_1.index t (1 : Fin 2) * 128 + 1 * q.val = q.val; omega
/-- The block of Wg2 at any point is the whole array. -/
theorem read_wg2 (c : Dev nD) (t : Fin cfg1.N) (k : Fin 128) (q : Fin 64) :
    iblk1 V c 2 t (ix2 k q) = V c main_arg5 (ix2 k q) := by
  show V c main_arg5 (((cfg1.win 2).blk t).view.emb (ix2 k q)) = V c main_arg5 (ix2 k q)
  refine congrArg (V c main_arg5) (funext fun a => Fin.ext ?_)
  obtain ⟨e0, e1, e2, e3, e4, e5, e6, e7, e8, e9, e10, e11, e12, e13, e14, e15⟩ := index_facts t
  match a with
  | ⟨0, _⟩ => show win1_2.index t (0 : Fin 2) * 128 + 1 * k.val = k.val; omega
  | ⟨1, _⟩ => show win1_2.index t (1 : Fin 2) * 64 + 1 * q.val = q.val; omega
/-- The block of the hidden layer at point t, at (p, k): row 5000·t + p of the array. -/
theorem read_h (c : Dev nD) (t : Fin cfg1.N) (p : Fin 5000) (k : Fin 128) (r : Fin 100000) (hr : r.val = t.val * 5000 + p.val) :
    iblk1 V c 3 t (ix2 p k) = V c main_v28_1 (ix2 r k) := by
  show V c main_v28_1 (((cfg1.win 3).blk t).view.emb (ix2 p k)) = V c main_v28_1 (ix2 r k)
  refine congrArg (V c main_v28_1) (funext fun a => Fin.ext ?_)
  obtain ⟨e0, e1, e2, e3, e4, e5, e6, e7, e8, e9, e10, e11, e12, e13, e14, e15⟩ := index_facts t
  match a with
  | ⟨0, _⟩ => show win1_3.index t (0 : Fin 2) * 5000 + 1 * p.val = r.val; omega
  | ⟨1, _⟩ => show win1_3.index t (1 : Fin 2) * 128 + 1 * k.val = k.val; omega
/-- The block of Wm2 at any point is the whole array. -/
theorem read_wm2 (c : Dev nD) (t : Fin cfg1.N) (k : Fin 128) (q : Fin 64) :
    iblk1 V c 4 t (ix2 k q) = V c main_arg9 (ix2 k q) := by
  show V c main_arg9 (((cfg1.win 4).blk t).view.emb (ix2 k q)) = V c main_arg9 (ix2 k q)
  refine congrArg (V c main_arg9) (funext fun a => Fin.ext ?_)
  obtain ⟨e0, e1, e2, e3, e4, e5, e6, e7, e8, e9, e10, e11, e12, e13, e14, e15⟩ := index_facts t
  match a with
  | ⟨0, _⟩ => show win1_4.index t (0 : Fin 2) * 128 + 1 * k.val = k.val; omega
  | ⟨1, _⟩ => show win1_4.index t (1 : Fin 2) * 64 + 1 * q.val = q.val; omega
/-- The block of the one-row bias bm2 at any point is the whole array. -/
theorem read_bm2 (c : Dev nD) (t : Fin cfg1.N) (k : Fin 1) (q : Fin 64) :
    iblk1 V c 5 t (ix2 k q) = V c main_v43 (ix2 k q) := by
  show V c main_v43 (((cfg1.win 5).blk t).view.emb (ix2 k q)) = V c main_v43 (ix2 k q)
  refine congrArg (V c main_v43) (funext fun a => Fin.ext ?_)
  obtain ⟨e0, e1, e2, e3, e4, e5, e6, e7, e8, e9, e10, e11, e12, e13, e14, e15⟩ := index_facts t
  match a with
  | ⟨0, _⟩ => show win1_5.index t (0 : Fin 2) * 1 + 1 * k.val = k.val; omega
  | ⟨1, _⟩ => show win1_5.index t (1 : Fin 2) * 64 + 1 * q.val = q.val; omega

/-! ## The first output:  max(a + bg1, 0)·Wg2 -/

/-- Where element (p, q) of the block written at point t lands in the array. -/
theorem emb_out6 (t : Fin cfg1.N) (p : Fin 5000) (q : Fin 64) (r : Fin 100000) (hr : r.val = t.val * 5000 + p.val) :
    ((cfg1.win 6).blk t).view.emb (ix2 p q) = ix2 r q := by
  refine funext fun a => Fin.ext ?_
  obtain ⟨e0, e1, e2, e3, e4, e5, e6, e7, e8, e9, e10, e11, e12, e13, e14, e15⟩ := index_facts t
  match a with
  | ⟨0, _⟩ => show win1_6.index t (0 : Fin 2) * 5000 + 1 * p.val = r.val; omega
  | ⟨1, _⟩ => show win1_6.index t (1 : Fin 2) * 64 + 1 * q.val = q.val; omega

/-- What point t writes back is its block of the whole-array function. -/
theorem flushed6_eq (c : Dev nD) (t : Fin cfg1.N) :
    (dat1 (F := Ideal) V c).flushed 6 t
      = ((cfg1.win 6).blk t).view.read (Elt Ideal) (biasReluMm 100000 128 64 (V c main_v41) (V c main_v42) (V c main_arg5)) := by
  show (cfg1.win 6).cut (grid1.coords t) ((dat1 (F := Ideal) V c).after 6 t) = _
  rw [after1_6]
  unfold out1_6
  rw [View.canon_unit_zero zeros]
  simp only [View.ld_unit_zero (S := S5000x128) zeros, View.ld_unit_zero (S := S1x128) zeros, View.ld_unit_zero (S := S128x64) zeros]
  funext j
  obtain ⟨p, q, rfl⟩ : ∃ (p : Fin 5000) (q : Fin 64), j = ix2 p q := ⟨j 0, j 1, eq_ix2 j⟩
  have ht := point_lt t
  have hemb := emb_out6 t p q ⟨t.val * 5000 + p.val, by have := p.isLt; omega⟩ rfl
  show k1_pay1 (F := Ideal) (iblk1 V c 0 t) (iblk1 V c 1 t) (iblk1 V c 2 t) (ix2 p q)
    = (biasReluMm 100000 128 64 (V c main_v41) (V c main_v42) (V c main_arg5)) (((cfg1.win 6).blk t).view.emb (ix2 p q))
  rw [hemb]
  refine (pay_dense2_gcn (iblk1 V c 0 t) (iblk1 V c 1 t) (iblk1 V c 2 t) p q).trans ?_
  exact Finset.sum_congr rfl fun k _ => congrArg₂ (· * ·)
    (congrArg₂ (fun a b => FloatOps.maximumf (F := Ideal) (φ := .f32) (FloatOps.addf (F := Ideal) (φ := .f32) a b) zero) (read_a V c t p k _ rfl) (read_bg1 V c t 0 k))
    (read_wg2 V c t k q)

/-- An index of the array is in point t's block iff each coordinate is in the block's range on its axis. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v44_0).slice (win1_6.rect t)).set ↔ _
  rw [View.set_slice_whole, Rect.mem_set_unit]
  exact Iff.rfl

/-- Row r is covered by the point r / 5000. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 5000 < cfg1.N := by rw [show cfg1.N = 20 from N_1]; omega
  obtain ⟨e0, e1, e2, e3, e4, e5, e6, e7, e8, e9, e10, e11, e12, e13, e14, e15⟩ := index_facts ⟨(i 0).val / 5000, hN⟩
  refine ⟨⟨(i 0).val / 5000, hN⟩, flush1_6 _, ?_⟩
  rw [mem_blk6]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e12]; show (i 0).val / 5000 * 5000 ≤ (i 0).val ∧ (i 0).val < (i 0).val / 5000 * 5000 + 5000; omega
  | ⟨1, _⟩ =>
    show win1_6.index ⟨(i 0).val / 5000, hN⟩ (1 : Fin 2) * 64 ≤ (i 1).val ∧ (i 1).val < win1_6.index ⟨(i 0).val / 5000, hN⟩ (1 : Fin 2) * 64 + 64
    rw [e13]; omega

/-- The output array after the region, as one function of the entry arrays. -/
theorem out6 (c : Dev nD) :
    (dat1 (F := Ideal) V c).arrAt 6 cfg1.N = biasReluMm 100000 128 64 (V c main_v41) (V c main_v42) (V c main_arg5) :=
  (dat1 (F := Ideal) V c).arrAt_eq_of_cover 6 _ (fun t _ => flushed6_eq V c t) cover6

/-! ## The second output:  h·Wm2 + bm2 -/

/-- Where element (p, q) of the block written at point t lands in the array. -/
theorem emb_out7 (t : Fin cfg1.N) (p : Fin 5000) (q : Fin 64) (r : Fin 100000) (hr : r.val = t.val * 5000 + p.val) :
    ((cfg1.win 7).blk t).view.emb (ix2 p q) = ix2 r q := by
  refine funext fun a => Fin.ext ?_
  obtain ⟨e0, e1, e2, e3, e4, e5, e6, e7, e8, e9, e10, e11, e12, e13, e14, e15⟩ := index_facts t
  match a with
  | ⟨0, _⟩ => show win1_7.index t (0 : Fin 2) * 5000 + 1 * p.val = r.val; omega
  | ⟨1, _⟩ => show win1_7.index t (1 : Fin 2) * 64 + 1 * q.val = q.val; omega

/-- What point t writes back is its block of the whole-array function. -/
theorem flushed7_eq (c : Dev nD) (t : Fin cfg1.N) :
    (dat1 (F := Ideal) V c).flushed 7 t
      = ((cfg1.win 7).blk t).view.read (Elt Ideal) (mmBias 100000 128 64 (V c main_v28_1) (V c main_arg9) (V c main_v43)) := by
  show (cfg1.win 7).cut (grid1.coords t) ((dat1 (F := Ideal) V c).after 7 t) = _
  rw [after1_7]
  unfold out1_7
  rw [View.canon_unit_zero zeros]
  simp only [View.ld_unit_zero (S := S5000x128) zeros, View.ld_unit_zero (S := S128x64) zeros, View.ld_unit_zero (S := S1x64) zeros]
  funext j
  obtain ⟨p, q, rfl⟩ : ∃ (p : Fin 5000) (q : Fin 64), j = ix2 p q := ⟨j 0, j 1, eq_ix2 j⟩
  have ht := point_lt t
  have hemb := emb_out7 t p q ⟨t.val * 5000 + p.val, by have := p.isLt; omega⟩ rfl
  show k1_pay2 (F := Ideal) (iblk1 V c 3 t) (iblk1 V c 4 t) (iblk1 V c 5 t) (ix2 p q)
    = (mmBias 100000 128 64 (V c main_v28_1) (V c main_arg9) (V c main_v43)) (((cfg1.win 7).blk t).view.emb (ix2 p q))
  rw [hemb]
  refine (pay_dense2_mlp (iblk1 V c 3 t) (iblk1 V c 4 t) (iblk1 V c 5 t) p q).trans ?_
  exact congrArg₂ (fun a b => FloatOps.addf (F := Ideal) (φ := .f32) a b)
    (Finset.sum_congr rfl fun k _ => congrArg₂ (· * ·) (read_h V c t p k _ rfl) (read_wm2 V c t k q))
    (read_bm2 V c t 0 q)

/-- An index of the array is in point t's block iff each coordinate is in the block's range on its axis. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_1).slice (win1_7.rect t)).set ↔ _
  rw [View.set_slice_whole, Rect.mem_set_unit]
  exact Iff.rfl

/-- Row r is covered by the point r / 5000. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : (i 0).val / 5000 < cfg1.N := by rw [show cfg1.N = 20 from N_1]; omega
  obtain ⟨e0, e1, e2, e3, e4, e5, e6, e7, e8, e9, e10, e11, e12, e13, e14, e15⟩ := index_facts ⟨(i 0).val / 5000, hN⟩
  refine ⟨⟨(i 0).val / 5000, hN⟩, flush1_7 _, ?_⟩
  rw [mem_blk7]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e14]; show (i 0).val / 5000 * 5000 ≤ (i 0).val ∧ (i 0).val < (i 0).val / 5000 * 5000 + 5000; omega
  | ⟨1, _⟩ =>
    show win1_7.index ⟨(i 0).val / 5000, hN⟩ (1 : Fin 2) * 64 ≤ (i 1).val ∧ (i 1).val < win1_7.index ⟨(i 0).val / 5000, hN⟩ (1 : Fin 2) * 64 + 64
    rw [e15]; omega

/-- The output array after the region, as one function of the entry arrays. -/
theorem out7 (c : Dev nD) :
    (dat1 (F := Ideal) V c).arrAt 7 cfg1.N = mmBias 100000 128 64 (V c main_v28_1) (V c main_arg9) (V c main_v43) :=
  (dat1 (F := Ideal) V c).arrAt_eq_of_cover 7 _ (fun t _ => flushed7_eq V c t) cover7

end Cert.KernelIdeal.Region1

end
-- ==== Proof.Region2.lean ====
/-
  The third kernel region, read as values: whatever arrays the region finds at its entry, its output array ends
  holding the gated blend  β·(a' + bg2) + (1 − β)·z,  index by index, where a' (the aggregated second layer), z (the
  other branch), the one-row bias bg2 and the one-by-one gate β are the entry contents of its four input arrays.

  The grid has 20 points; at point t the row-blocked windows (a', z and the output) sit at rows
  5000·t … 5000·t + 4999, the bias and the gate are their whole arrays. Each written block is the restriction of one
  whole-array function, and the 20 blocks cover the array.
-/
import proofs.«112460_j24481313587799_1_alg».proof.Proof.Gen.KernelIdeal.Frame
import proofs.«112460_j24481313587799_1_alg».proof.Proof.Payload
import proofs.«112460_j24481313587799_1_alg».proof.Proof.Spec
import Idealize.ShloMosaic.Lib.Pipeline.Value

set_option maxRecDepth 16384

noncomputable section

namespace Cert.KernelIdeal.Region2

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: a row-blocked window is at block row t, every other block index is 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 20 := Nat.lt_of_lt_of_eq t.isLt N_2

/-- The block of the aggregated layer at point t, at (p, q): row 5000·t + p of the array. -/
theorem read_agg (c : Dev nD) (t : Fin cfg2.N) (p : Fin 5000) (k : Fin 64) (r : Fin 100000) (hr : r.val = t.val * 5000 + p.val) :
    iblk2 V c 0 t (ix2 p k) = V c main_v57 (ix2 r k) := by
  show V c main_v57 (((cfg2.win 0).blk t).view.emb (ix2 p k)) = V c main_v57 (ix2 r k)
  refine congrArg (V c main_v57) (funext fun a => Fin.ext ?_)
  obtain ⟨e0, e1, e2, e3, e4, e5, e6, e7, e8, e9⟩ := index_facts t
  match a with
  | ⟨0, _⟩ => show win2_0.index t (0 : Fin 2) * 5000 + 1 * p.val = r.val; omega
  | ⟨1, _⟩ => show win2_0.index t (1 : Fin 2) * 64 + 1 * k.val = k.val; omega
/-- The block of the one-row bias bg2 at any point is the whole array. -/
theorem read_bg2 (c : Dev nD) (t : Fin cfg2.N) (k : Fin 1) (q : Fin 64) :
    iblk2 V c 1 t (ix2 k q) = V c main_v66 (ix2 k q) := by
  show V c main_v66 (((cfg2.win 1).blk t).view.emb (ix2 k q)) = V c main_v66 (ix2 k q)
  refine congrArg (V c main_v66) (funext fun a => Fin.ext ?_)
  obtain ⟨e0, e1, e2, e3, e4, e5, e6, e7, e8, e9⟩ := index_facts t
  match a with
  | ⟨0, _⟩ => show win2_1.index t (0 : Fin 2) * 1 + 1 * k.val = k.val; omega
  | ⟨1, _⟩ => show win2_1.index t (1 : Fin 2) * 64 + 1 * q.val = q.val; omega
/-- The block of the other branch at point t, at (p, q): row 5000·t + p of the array. -/
theorem read_z (c : Dev nD) (t : Fin cfg2.N) (p : Fin 5000) (k : Fin 64) (r : Fin 100000) (hr : r.val = t.val * 5000 + p.val) :
    iblk2 V c 2 t (ix2 p k) = V c main_v44_1 (ix2 r k) := by
  show V c main_v44_1 (((cfg2.win 2).blk t).view.emb (ix2 p k)) = V c main_v44_1 (ix2 r k)
  refine congrArg (V c main_v44_1) (funext fun a => Fin.ext ?_)
  obtain ⟨e0, e1, e2, e3, e4, e5, e6, e7, e8, e9⟩ := index_facts t
  match a with
  | ⟨0, _⟩ => show win2_2.index t (0 : Fin 2) * 5000 + 1 * p.val = r.val; omega
  | ⟨1, _⟩ => show win2_2.index t (1 : Fin 2) * 64 + 1 * k.val = k.val; omega
/-- The block of the one-by-one gate at any point is the whole array. -/
theorem read_gate (c : Dev nD) (t : Fin cfg2.N) (k : Fin 1) (q : Fin 1) :
    iblk2 V c 3 t (ix2 k q) = V c main_v65 (ix2 k q) := by
  show V c main_v65 (((cfg2.win 3).blk t).view.emb (ix2 k q)) = V c main_v65 (ix2 k q)
  refine congrArg (V c main_v65) (funext fun a => Fin.ext ?_)
  obtain ⟨e0, e1, e2, e3, e4, e5, e6, e7, e8, e9⟩ := index_facts t
  match a with
  | ⟨0, _⟩ => show win2_3.index t (0 : Fin 2) * 1 + 1 * k.val = k.val; omega
  | ⟨1, _⟩ => show win2_3.index t (1 : Fin 2) * 1 + 1 * q.val = q.val; omega

/-! ## The output:  β·(a' + bg2) + (1 − β)·z -/

/-- Where element (p, q) of the block written at point t lands in the array. -/
theorem emb_out4 (t : Fin cfg2.N) (p : Fin 5000) (q : Fin 64) (r : Fin 100000) (hr : r.val = t.val * 5000 + p.val) :
    ((cfg2.win 4).blk t).view.emb (ix2 p q) = ix2 r q := by
  refine funext fun a => Fin.ext ?_
  obtain ⟨e0, e1, e2, e3, e4, e5, e6, e7, e8, e9⟩ := index_facts t
  match a with
  | ⟨0, _⟩ => show win2_4.index t (0 : Fin 2) * 5000 + 1 * p.val = r.val; omega
  | ⟨1, _⟩ => show win2_4.index t (1 : Fin 2) * 64 + 1 * q.val = q.val; omega

/-- What point t writes back is its block of the whole-array function. -/
theorem flushed4_eq (c : Dev nD) (t : Fin cfg2.N) :
    (dat2 (F := Ideal) V c).flushed 4 t
      = ((cfg2.win 4).blk t).view.read (Elt Ideal) (blend 100000 64 (V c main_v57) (V c main_v66) (V c main_v44_1) (V c main_v65)) := by
  show (cfg2.win 4).cut (grid2.coords t) ((dat2 (F := Ideal) V c).after 4 t) = _
  rw [after2_4]
  unfold out2_4
  rw [View.canon_unit_zero zeros]
  simp only [View.ld_unit_zero (S := S1x1) zeros, View.ld_unit_zero (S := S5000x64) zeros, View.ld_unit_zero (S := S1x64) zeros]
  funext j
  obtain ⟨p, q, rfl⟩ : ∃ (p : Fin 5000) (q : Fin 64), j = ix2 p q := ⟨j 0, j 1, eq_ix2 j⟩
  have ht := point_lt t
  have hemb := emb_out4 t p q ⟨t.val * 5000 + p.val, by have := p.isLt; omega⟩ rfl
  show k2_pay1 (F := Ideal) (iblk2 V c 3 t) (iblk2 V c 0 t) (iblk2 V c 1 t) (iblk2 V c 2 t) (ix2 p q)
    = (blend 100000 64 (V c main_v57) (V c main_v66) (V c main_v44_1) (V c main_v65)) (((cfg2.win 4).blk t).view.emb (ix2 p q))
  rw [hemb]
  refine (pay_fuse (iblk2 V c 3 t) (iblk2 V c 0 t) (iblk2 V c 1 t) (iblk2 V c 2 t) p q).trans ?_
  exact congrArg₂ (fun a b => FloatOps.addf (F := Ideal) (φ := .f32) a b)
    (congrArg₂ (fun a b => FloatOps.mulf (F := Ideal) (φ := .f32) a b) (read_gate V c t 0 0)
      (congrArg₂ (fun a b => FloatOps.addf (F := Ideal) (φ := .f32) a b) (read_agg V c t p q _ rfl) (read_bg2 V c t 0 q)))
    (congrArg₂ (fun a b => FloatOps.mulf (F := Ideal) (φ := .f32) a b) (congrArg (fun a => FloatOps.subf (F := Ideal) (φ := .f32) one a) (read_gate V c t 0 0)) (read_z V c t p q _ rfl))

/-- An index of the array is in point t's block iff each coordinate is in the block's range on its axis. -/
theorem mem_blk4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v67).slice (win2_4.rect t)).set ↔ _
  rw [View.set_slice_whole, Rect.mem_set_unit]
  exact Iff.rfl

/-- Row r is covered by the point r / 5000. -/
theorem cover4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : (i 0).val / 5000 < cfg2.N := by rw [show cfg2.N = 20 from N_2]; omega
  obtain ⟨e0, e1, e2, e3, e4, e5, e6, e7, e8, e9⟩ := index_facts ⟨(i 0).val / 5000, hN⟩
  refine ⟨⟨(i 0).val / 5000, hN⟩, flush2_4 _, ?_⟩
  rw [mem_blk4]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, hN⟩ (1 : Fin 2) * 64 ≤ (i 1).val ∧ (i 1).val < win2_4.index ⟨(i 0).val / 5000, hN⟩ (1 : Fin 2) * 64 + 64
    rw [e9]; omega

/-- The output array after the region, as one function of the entry arrays. -/
theorem out4 (c : Dev nD) :
    (dat2 (F := Ideal) V c).arrAt 4 cfg2.N = blend 100000 64 (V c main_v57) (V c main_v66) (V c main_v44_1) (V c main_v65) :=
  (dat2 (F := Ideal) V c).arrAt_eq_of_cover 4 _ (fun t _ => flushed4_eq V c t) cover4

end Cert.KernelIdeal.Region2

end
-- ==== Proof.RefStages.lean ====
/-
  The reference program's stages, read as the same whole-array functions as the kernels' outputs.

  The reference computes the same five arrays with whole-array operations: a matrix product is the host's
  dot_general, which over the extended reals is the plain sum over the contracted coordinate; a bias of length n is
  broadcast along the rows, which reads it at the column; the positive part is the maximum with a broadcast zero; the
  gate is a scalar broadcast to every entry. A bias the kernels receive as a one-row array is the same vector reshaped,
  and the gate they receive as a one-by-one array is the same scalar reshaped. The gather and scatter-add stages between
  the products are not opened: they enter only as the arrays they produce.
-/
import proofs.«112460_j24481313587799_1_alg».proof.Proof.Gen.ReferenceIdeal.Read
import proofs.«112460_j24481313587799_1_alg».proof.Proof.Spec
import Idealize.ShloMosaic.Lib.Pipeline.Value
import Idealize.ShloMosaic.Lib.ValueLayout

noncomputable section

namespace Cert.ReferenceIdeal.Stages

open Cert.ReferenceIdeal Cert.ReferenceIdeal.Read Cert.Spec
open Idealize.ShloMosaic Idealize.ShloMosaic.ValueIdx

/-- A scalar reshaped to a one-by-one array reads the scalar. -/
theorem shapeCast_scalar_11 {α : Type} (y : (⟨0, ![]⟩ : Shape).Idx → α) (h : (⟨0, ![]⟩ : Shape).ShapeCasts ⟨2, ![1, 1]⟩) (j : (⟨0, ![]⟩ : Shape).Idx) :
    shapeCast ⟨2, ![1, 1]⟩ y h (ix2 (0 : Fin 1) (0 : Fin 1)) = y j :=
  shapeCast_apply y h _ j (by
    rw [Shape.rowMajor_val_two]
    exact Shape.rowMajorPi_zero _ j)

/-- The first layer's product:  x·Wg1. -/
theorem gcn1 (x0 : (⟨S100000x128, .f32⟩ : BufTy).Contents (Elt Ideal)) (x3 : (⟨S128x128, .f32⟩ : BufTy).Contents (Elt Ideal)) :
    val_main_v27 (F := Ideal) x0 x3 = mm 100000 128 128 x0 x3 := by
  funext i
  obtain ⟨r, q, rfl⟩ : ∃ (r : Fin 100000) (q : Fin 128), i = ix2 r q := ⟨i 0, i 1, eq_ix2 i⟩
  rw [val_main_v27_apply]
  unfold mm
  refine Finset.sum_congr rfl fun k _ => congrArg₂ (· * ·) (congrArg x0 (funext fun a => ?_)) (congrArg x3 (funext fun a => ?_))
  · match a with
    | ⟨0, _⟩ => rfl
    | ⟨1, _⟩ => rfl
  · match a with
    | ⟨0, _⟩ => rfl
    | ⟨1, _⟩ => rfl

/-- The hidden layer:  max(x·Wm1 + bm1, 0),  the bias as the one-row array the kernel receives. -/
theorem mlp1 (x0 : (⟨S100000x128, .f32⟩ : BufTy).Contents (Elt Ideal)) (x7 : (⟨S128x128, .f32⟩ : BufTy).Contents (Elt Ideal)) (x8 : (⟨S128, .f32⟩ : BufTy).Contents (Elt Ideal))
    (h : S128.ShapeCasts S1x128) :
    val_main_v66 (F := Ideal) x0 x7 x8 = mmBiasRelu 100000 128 128 x0 x7 (shapeCast S1x128 x8 h) := by
  funext i
  obtain ⟨r, q, rfl⟩ : ∃ (r : Fin 100000) (q : Fin 128), i = ix2 r q := ⟨i 0, i 1, eq_ix2 i⟩
  rw [val_main_v66_apply, val_main_v65_apply, val_main_v62_apply, val_main_v64_apply, val_main_v63_apply,
    val_main_call1_v0_apply, val_main_call1_cst_apply]
  unfold mmBiasRelu mm
  refine congrArg₂ (fun a b => FloatOps.maximumf (F := Ideal) (φ := .f32) (FloatOps.addf (F := Ideal) (φ := .f32) a b) zero) ?_ ?_
  · refine Finset.sum_congr rfl fun k _ => congrArg₂ (· * ·) (congrArg x0 (funext fun a => ?_)) (congrArg x7 (funext fun a => ?_))
    · match a with
      | ⟨0, _⟩ => rfl
      | ⟨1, _⟩ => rfl
    · match a with
      | ⟨0, _⟩ => rfl
      | ⟨1, _⟩ => rfl
  · refine Eq.trans (congrArg x8 (funext fun a => ?_)) (shapeCast_a_1a_apply x8 h 0 q).symm
    match a with
    | ⟨0, _⟩ => rfl

/-- The second layer's product:  max(a + bg1, 0)·Wg2,  a the aggregated first layer. -/
theorem gcn2 (x0 : (⟨S100000x128, .f32⟩ : BufTy).Contents (Elt Ideal)) (x1 : (⟨S2x1600000, .i32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) (h : S128.ShapeCasts S1x128) :
    val_main_v45 (F := Ideal) x0 x1 x3 x4 x5
      = biasReluMm 100000 128 64 (val_main_v40 (F := Ideal) x0 x1 x3) (shapeCast S1x128 x4 h) x5 := by
  funext i
  obtain ⟨r, q, rfl⟩ : ∃ (r : Fin 100000) (q : Fin 64), i = ix2 r q := ⟨i 0, i 1, eq_ix2 i⟩
  rw [val_main_v45_apply]
  unfold biasReluMm
  refine Finset.sum_congr rfl fun k _ => ?_
  have hl : lidx_main_v45 (ix2 r q) k = ix2 r k := funext fun a => by
    match a with
    | ⟨0, _⟩ => rfl
    | ⟨1, _⟩ => rfl
  have hr : ridx_main_v45 (ix2 r q) k = ix2 k q := funext fun a => by
    match a with
    | ⟨0, _⟩ => rfl
    | ⟨1, _⟩ => rfl
  rw [hl, hr, val_main_v44_apply, val_main_v43_apply, val_main_v42_apply, val_main_v41_apply,
    val_main_call0_v0_apply, val_main_call0_cst_apply]
  refine congrArg (· * x5 (ix2 k q)) ?_
  refine congrArg (fun b => FloatOps.maximumf (F := Ideal) (φ := .f32) (FloatOps.addf (F := Ideal) (φ := .f32) (val_main_v40 (F := Ideal) x0 x1 x3 (ix2 r k)) b) zero) ?_
  refine Eq.trans (congrArg x4 (funext fun a => ?_)) (shapeCast_a_1a_apply x4 h 0 k).symm
  match a with
  | ⟨0, _⟩ => rfl

/-- The other branch:  h·Wm2 + bm2,  h the hidden layer. -/
theorem mlp2 (x0 : (⟨S100000x128, .f32⟩ : BufTy).Contents (Elt Ideal)) (x7 : (⟨S128x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal)) (h : S64.ShapeCasts S1x64) :
    val_main_v70 (F := Ideal) x0 x7 x8 x9 x10
      = mmBias 100000 128 64 (val_main_v66 (F := Ideal) x0 x7 x8) x9 (shapeCast S1x64 x10 h) := by
  funext i
  obtain ⟨r, q, rfl⟩ : ∃ (r : Fin 100000) (q : Fin 64), i = ix2 r q := ⟨i 0, i 1, eq_ix2 i⟩
  rw [val_main_v70_apply, val_main_v67_apply, val_main_v69_apply, val_main_v68_apply]
  unfold mmBias mm
  refine congrArg₂ (fun a b => FloatOps.addf (F := Ideal) (φ := .f32) a b) ?_ ?_
  · refine Finset.sum_congr rfl fun k _ => congrArg₂ (· * ·) (congrArg (val_main_v66 (F := Ideal) x0 x7 x8) (funext fun a => ?_)) (congrArg x9 (funext fun a => ?_))
    · match a with
      | ⟨0, _⟩ => rfl
      | ⟨1, _⟩ => rfl
    · match a with
      | ⟨0, _⟩ => rfl
      | ⟨1, _⟩ => rfl
  · refine Eq.trans (congrArg x10 (funext fun a => ?_)) (shapeCast_a_1a_apply x10 h 0 q).symm
    match a with
    | ⟨0, _⟩ => rfl

/-- The result:  β·(a' + bg2) + (1 − β)·z,  a' the aggregated second layer, z the other branch, β the gate. -/
theorem blended (x0 : (⟨S100000x128, .f32⟩ : BufTy).Contents (Elt Ideal)) (x1 : (⟨S2x1600000, .i32⟩ : BufTy).Contents (Elt Ideal)) (x2 : (⟨S_, .f32⟩ : BufTy).Contents (Elt Ideal))
    (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal))
    (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))
    (x11 : (⟨S_, .f32⟩ : BufTy).Contents (Elt Ideal)) (h : S64.ShapeCasts S1x64) (h' : S_.ShapeCasts ⟨2, ![1, 1]⟩) :
    val_main_v83 (F := Ideal) x0 x1 x2 x3 x4 x5 x6 x7 x8 x9 x10 x11
      = blend 100000 64 (val_main_v58 (F := Ideal) x0 x1 x3 x4 x5) (shapeCast S1x64 x6 h)
          (val_main_v70 (F := Ideal) x0 x7 x8 x9 x10) (shapeCast ⟨2, ![1, 1]⟩ (val_main_v77 (F := Ideal) x2 x11) h') := by
  funext i
  obtain ⟨r, q, rfl⟩ : ∃ (r : Fin 100000) (q : Fin 64), i = ix2 r q := ⟨i 0, i 1, eq_ix2 i⟩
  rw [val_main_v83_apply, val_main_v79_apply, val_main_v82_apply, val_main_v78_apply, val_main_v81_apply,
    val_main_v80_apply, val_main_v61_apply, val_main_v60_apply, val_main_v59_apply, val_main_cst_13_apply]
  unfold blend
  have hg : ∀ j : S_.Idx, val_main_v77 (F := Ideal) x2 x11 j = shapeCast ⟨2, ![1, 1]⟩ (val_main_v77 (F := Ideal) x2 x11) h' (ix2 (0 : Fin 1) (0 : Fin 1)) :=
    fun j => (shapeCast_scalar_11 (val_main_v77 (F := Ideal) x2 x11) h' j).symm
  rw [hg]
  refine congrArg (fun b => FloatOps.addf (F := Ideal) (φ := .f32)
      (FloatOps.mulf (F := Ideal) (φ := .f32) (shapeCast ⟨2, ![1, 1]⟩ (val_main_v77 (F := Ideal) x2 x11) h' (ix2 (0 : Fin 1) (0 : Fin 1)))
        (FloatOps.addf (F := Ideal) (φ := .f32) (val_main_v58 (F := Ideal) x0 x1 x3 x4 x5 (ix2 r q)) b))
      (FloatOps.mulf (F := Ideal) (φ := .f32) (FloatOps.subf (F := Ideal) (φ := .f32) one (shapeCast ⟨2, ![1, 1]⟩ (val_main_v77 (F := Ideal) x2 x11) h' (ix2 (0 : Fin 1) (0 : Fin 1))))
        (val_main_v70 (F := Ideal) x0 x7 x8 x9 x10 (ix2 r q)))) ?_
  refine Eq.trans (congrArg x6 (funext fun a => ?_)) (shapeCast_a_1a_apply x6 h 0 q).symm
  match a with
  | ⟨0, _⟩ => rfl

end Cert.ReferenceIdeal.Stages

end
-- ==== Proof.Boundary.lean ====
/-
  The contents of every array a kernel region reads, at the moment the region is entered, as the reference's own
  stage functions of the argument arrays.

  The program alternates stretches of host operations with kernel regions. A stretch leaves a buffer it does not write
  as it found it and writes each of its results as its operation's function of its operands; a region leaves every
  buffer other than its windows' arrays as it found it, and its output arrays at the whole-array functions of its
  input arrays (the three region modules). Walking these from the launch memory:
    before the first region   the edge lists with self-loops, the symmetric normalisation, and bm1 as one row;
    after it                  x·Wg1  and  max(x·Wm1 + bm1, 0);
    before the second         the first aggregation of  x·Wg1,  bg1 and bm2 as one row each;
    after it                  max(a + bg1, 0)·Wg2  and  h·Wm2 + bm2;
    before the third          the second aggregation, bg2 as one row, the gate as a one-by-one array;
    after it                  the blend.
  The gather and scatter-add that make up an aggregation are the same operations, in the same order, on both sides:
  they are never opened, only fed equal arrays.
-/
import proofs.«112460_j24481313587799_1_alg».proof.Proof.Gen.KernelIdeal.Frame
import proofs.«112460_j24481313587799_1_alg».proof.Proof.Region0
import proofs.«112460_j24481313587799_1_alg».proof.Proof.Region1
import proofs.«112460_j24481313587799_1_alg».proof.Proof.Region2
import proofs.«112460_j24481313587799_1_alg».proof.Proof.RefStages
import Idealize.ShloMosaic.Lib.StableHlo.Run

set_option maxRecDepth 16384

noncomputable section

namespace Cert.KernelIdeal.Boundary

open Cert.KernelIdeal Cert.KernelIdeal.Gen Cert.Spec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first region -/

theorem W1_arg0 : W1 m ρ c (Proc.devRef .tc main_arg0) = (m ((c : Thread nD τ).loc main_arg0)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg3 : W1 m ρ c (Proc.devRef .tc main_arg3) = (m ((c : Thread nD τ).loc main_arg3)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg7 : W1 m ρ c (Proc.devRef .tc main_arg7) = (m ((c : Thread nD τ).loc main_arg7)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg4 : W1 m ρ c (Proc.devRef .tc main_arg4) = (m ((c : Thread nD τ).loc main_arg4)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg5 : W1 m ρ c (Proc.devRef .tc main_arg5) = (m ((c : Thread nD τ).loc main_arg5)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg9 : W1 m ρ c (Proc.devRef .tc main_arg9) = (m ((c : Thread nD τ).loc main_arg9)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg10 : W1 m ρ c (Proc.devRef .tc main_arg10) = (m ((c : Thread nD τ).loc main_arg10)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg6 : W1 m ρ c (Proc.devRef .tc main_arg6) = (m ((c : Thread nD τ).loc main_arg6)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg2 : W1 m ρ c (Proc.devRef .tc main_arg2) = (m ((c : Thread nD τ).loc main_arg2)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg11 : W1 m ρ c (Proc.devRef .tc main_arg11) = (m ((c : Thread nD τ).loc main_arg11)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The bias bm1 as the one-row array the first kernel reads. -/
theorem W1_bm1 : W1 m ρ c (Proc.devRef .tc main_v27) = shapeCast S1x128 (m ((c : Thread nD τ).loc main_arg8)) shapeCasts_S128_S1x128 := by
  show StableHlo.after hostOps0 (W0 m ρ c) (Proc.devRef .tc main_v27) = _
  after_results_simp <;> rfl

/-- The source list with self-loops. -/
theorem W1_src : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

/-- The destination list with self-loops. -/
theorem W1_dst : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl

/-- The symmetric normalisation of the edges. -/
theorem W1_norm : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp <;> rfl

/-! ## After the first region -/

theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg6 : W2 m ρ c (Proc.devRef .tc main_arg6) = (m ((c : Thread nD τ).loc main_arg6)) :=
  (W2_of_ne m ρ c main_arg6 (by decide)).trans (W1_arg6 m ρ c)
theorem W2_arg2 : W2 m ρ c (Proc.devRef .tc main_arg2) = (m ((c : Thread nD τ).loc main_arg2)) :=
  (W2_of_ne m ρ c main_arg2 (by decide)).trans (W1_arg2 m ρ c)
theorem W2_arg11 : W2 m ρ c (Proc.devRef .tc main_arg11) = (m ((c : Thread nD τ).loc main_arg11)) :=
  (W2_of_ne m ρ c main_arg11 (by decide)).trans (W1_arg11 m ρ c)
theorem W2_src : W2 m ρ c (Proc.devRef .tc main_v3) = Cert.ReferenceIdeal.Read.val_main_v3 (F := Ideal) (m ((c : Thread nD τ).loc main_arg1)) :=
  (W2_of_ne m ρ c main_v3 (by decide)).trans (W1_src m ρ c)
theorem W2_dst : W2 m ρ c (Proc.devRef .tc main_v6) = Cert.ReferenceIdeal.Read.val_main_v6 (F := Ideal) (m ((c : Thread nD τ).loc main_arg1)) :=
  (W2_of_ne m ρ c main_v6 (by decide)).trans (W1_dst m ρ c)
theorem W2_norm : W2 m ρ c (Proc.devRef .tc main_v26) = Cert.ReferenceIdeal.Read.val_main_v26 (F := Ideal) (m ((c : Thread nD τ).loc main_arg1)) :=
  (W2_of_ne m ρ c main_v26 (by decide)).trans (W1_norm m ρ c)

/-- The first layer's product. -/
theorem W2_h1 : W2 m ρ c (Proc.devRef .tc main_v28_0) = Cert.ReferenceIdeal.Read.val_main_v27 (F := Ideal) (m ((c : Thread nD τ).loc main_arg0)) (m ((c : Thread nD τ).loc main_arg3)) := by
  refine (W2_arr m ρ c 4).trans ?_
  rw [Region0.out4 (V1 m ρ) c, Cert.ReferenceIdeal.Stages.gcn1]
  show mm 100000 128 128 (W1 m ρ c (Proc.devRef .tc main_arg0)) (W1 m ρ c (Proc.devRef .tc main_arg3)) = _
  rw [W1_arg0, W1_arg3]

/-- The hidden layer. -/
theorem W2_hidden : W2 m ρ c (Proc.devRef .tc main_v28_1) = Cert.ReferenceIdeal.Read.val_main_v66 (F := Ideal) (m ((c : Thread nD τ).loc main_arg0)) (m ((c : Thread nD τ).loc main_arg7)) (m ((c : Thread nD τ).loc main_arg8)) := by
  refine (W2_arr m ρ c 5).trans ?_
  rw [Region0.out5 (V1 m ρ) c, Cert.ReferenceIdeal.Stages.mlp1 _ _ _ shapeCasts_S128_S1x128]
  show mmBiasRelu 100000 128 128 (W1 m ρ c (Proc.devRef .tc main_arg0)) (W1 m ρ c (Proc.devRef .tc main_arg7)) (W1 m ρ c (Proc.devRef .tc main_v27)) = _
  rw [W1_arg0, W1_arg7, W1_bm1]

/-! ## Before the second region -/

theorem W3_arg5 : W3 m ρ c (Proc.devRef .tc main_arg5) = (m ((c : Thread nD τ).loc main_arg5)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)
theorem W3_arg9 : W3 m ρ c (Proc.devRef .tc main_arg9) = (m ((c : Thread nD τ).loc main_arg9)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg9 m ρ c)
theorem W3_arg6 : W3 m ρ c (Proc.devRef .tc main_arg6) = (m ((c : Thread nD τ).loc main_arg6)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg6 m ρ c)
theorem W3_arg2 : W3 m ρ c (Proc.devRef .tc main_arg2) = (m ((c : Thread nD τ).loc main_arg2)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg2 m ρ c)
theorem W3_arg11 : W3 m ρ c (Proc.devRef .tc main_arg11) = (m ((c : Thread nD τ).loc main_arg11)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg11 m ρ c)
theorem W3_src : W3 m ρ c (Proc.devRef .tc main_v3) = Cert.ReferenceIdeal.Read.val_main_v3 (F := Ideal) (m ((c : Thread nD τ).loc main_arg1)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_src m ρ c)
theorem W3_dst : W3 m ρ c (Proc.devRef .tc main_v6) = Cert.ReferenceIdeal.Read.val_main_v6 (F := Ideal) (m ((c : Thread nD τ).loc main_arg1)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_dst m ρ c)
theorem W3_norm : W3 m ρ c (Proc.devRef .tc main_v26) = Cert.ReferenceIdeal.Read.val_main_v26 (F := Ideal) (m ((c : Thread nD τ).loc main_arg1)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_norm m ρ c)
theorem W3_hidden : W3 m ρ c (Proc.devRef .tc main_v28_1) = Cert.ReferenceIdeal.Read.val_main_v66 (F := Ideal) (m ((c : Thread nD τ).loc main_arg0)) (m ((c : Thread nD τ).loc main_arg7)) (m ((c : Thread nD τ).loc main_arg8)) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_hidden m ρ c)

/-- The first aggregation. -/
theorem W3_agg1 : W3 m ρ c (Proc.devRef .tc main_v41) = Cert.ReferenceIdeal.Read.val_main_v40 (F := Ideal) (m ((c : Thread nD τ).loc main_arg0)) (m ((c : Thread nD τ).loc main_arg1)) (m ((c : Thread nD τ).loc main_arg3)) := by
  show StableHlo.after hostOps1 (W2 m ρ c) (Proc.devRef .tc main_v41) = _
  after_results_simp
  rw [W2_h1, W2_src, W2_dst, W2_norm]
  rfl

/-- The bias bg1 as one row. -/
theorem W3_bg1 : W3 m ρ c (Proc.devRef .tc main_v42) = shapeCast S1x128 (m ((c : Thread nD τ).loc main_arg4)) shapeCasts_S128_S1x128 := by
  show StableHlo.after hostOps1 (W2 m ρ c) (Proc.devRef .tc main_v42) = _
  after_results_simp
  rw [W2_arg4]
  rfl

/-- The bias bm2 as one row. -/
theorem W3_bm2 : W3 m ρ c (Proc.devRef .tc main_v43) = shapeCast S1x64 (m ((c : Thread nD τ).loc main_arg10)) shapeCasts_S64_S1x64 := by
  show StableHlo.after hostOps1 (W2 m ρ c) (Proc.devRef .tc main_v43) = _
  after_results_simp
  rw [W2_arg10]
  rfl

/-! ## After the second region -/

theorem W4_arg6 : W4 m ρ c (Proc.devRef .tc main_arg6) = (m ((c : Thread nD τ).loc main_arg6)) :=
  (W4_of_ne m ρ c main_arg6 (by decide)).trans (W3_arg6 m ρ c)
theorem W4_arg2 : W4 m ρ c (Proc.devRef .tc main_arg2) = (m ((c : Thread nD τ).loc main_arg2)) :=
  (W4_of_ne m ρ c main_arg2 (by decide)).trans (W3_arg2 m ρ c)
theorem W4_arg11 : W4 m ρ c (Proc.devRef .tc main_arg11) = (m ((c : Thread nD τ).loc main_arg11)) :=
  (W4_of_ne m ρ c main_arg11 (by decide)).trans (W3_arg11 m ρ c)
theorem W4_src : W4 m ρ c (Proc.devRef .tc main_v3) = Cert.ReferenceIdeal.Read.val_main_v3 (F := Ideal) (m ((c : Thread nD τ).loc main_arg1)) :=
  (W4_of_ne m ρ c main_v3 (by decide)).trans (W3_src m ρ c)
theorem W4_dst : W4 m ρ c (Proc.devRef .tc main_v6) = Cert.ReferenceIdeal.Read.val_main_v6 (F := Ideal) (m ((c : Thread nD τ).loc main_arg1)) :=
  (W4_of_ne m ρ c main_v6 (by decide)).trans (W3_dst m ρ c)
theorem W4_norm : W4 m ρ c (Proc.devRef .tc main_v26) = Cert.ReferenceIdeal.Read.val_main_v26 (F := Ideal) (m ((c : Thread nD τ).loc main_arg1)) :=
  (W4_of_ne m ρ c main_v26 (by decide)).trans (W3_norm m ρ c)

/-- The second layer's product. -/
theorem W4_h2 : W4 m ρ c (Proc.devRef .tc main_v44_0)
    = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 6).trans ?_
  rw [Region1.out6 (V3 m ρ) c, Cert.ReferenceIdeal.Stages.gcn2 _ _ _ _ _ shapeCasts_S128_S1x128]
  show biasReluMm 100000 128 64 (W3 m ρ c (Proc.devRef .tc main_v41)) (W3 m ρ c (Proc.devRef .tc main_v42)) (W3 m ρ c (Proc.devRef .tc main_arg5)) = _
  rw [W3_agg1, W3_bg1, W3_arg5]

/-- The other branch. -/
theorem W4_zmlp : W4 m ρ c (Proc.devRef .tc main_v44_1)
    = Cert.ReferenceIdeal.Read.val_main_v70 (F := Ideal) (m ((c : Thread nD τ).loc main_arg0)) (m ((c : Thread nD τ).loc main_arg7)) (m ((c : Thread nD τ).loc main_arg8)) (m ((c : Thread nD τ).loc main_arg9)) (m ((c : Thread nD τ).loc main_arg10)) := by
  refine (W4_arr m ρ c 7).trans ?_
  rw [Region1.out7 (V3 m ρ) c, Cert.ReferenceIdeal.Stages.mlp2 _ _ _ _ _ shapeCasts_S64_S1x64]
  show mmBias 100000 128 64 (W3 m ρ c (Proc.devRef .tc main_v28_1)) (W3 m ρ c (Proc.devRef .tc main_arg9)) (W3 m ρ c (Proc.devRef .tc main_v43)) = _
  rw [W3_hidden, W3_arg9, W3_bm2]

/-! ## Before the third region -/

theorem W5_zmlp : W5 m ρ c (Proc.devRef .tc main_v44_1)
    = Cert.ReferenceIdeal.Read.val_main_v70 (F := Ideal) (m ((c : Thread nD τ).loc main_arg0)) (m ((c : Thread nD τ).loc main_arg7)) (m ((c : Thread nD τ).loc main_arg8)) (m ((c : Thread nD τ).loc main_arg9)) (m ((c : Thread nD τ).loc main_arg10)) :=
  (StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_zmlp m ρ c)

/-- The second aggregation. -/
theorem W5_agg2 : W5 m ρ c (Proc.devRef .tc main_v57)
    = Cert.ReferenceIdeal.Read.val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) (Proc.devRef .tc main_v57) = _
  after_results_simp
  rw [W4_h2, W4_src, W4_dst, W4_norm]
  rfl

/-- The bias bg2 as one row. -/
theorem W5_bg2 : W5 m ρ c (Proc.devRef .tc main_v66) = shapeCast S1x64 (m ((c : Thread nD τ).loc main_arg6)) shapeCasts_S64_S1x64 := by
  show StableHlo.after hostOps2 (W4 m ρ c) (Proc.devRef .tc main_v66) = _
  after_results_simp
  rw [W4_arg6]
  rfl

/-- The gate as a one-by-one array. -/
theorem W5_gate : W5 m ρ c (Proc.devRef .tc main_v65)
    = shapeCast S1x1 (Cert.ReferenceIdeal.Read.val_main_v77 (F := Ideal) (m ((c : Thread nD τ).loc main_arg2)) (m ((c : Thread nD τ).loc main_arg11))) shapeCasts_S_S1x1 := by
  show StableHlo.after hostOps2 (W4 m ρ c) (Proc.devRef .tc main_v65) = _
  after_results_simp
  rw [W4_arg2, W4_arg11]
  rfl

/-! ## After the third region: the result -/

/-- The result array at the program's last boundary is the reference's last stage of the argument arrays. -/
theorem W6_result : W6 m ρ c (Proc.devRef .tc main_v67)
    = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 4).trans ?_
  rw [Region2.out4 (V5 m ρ) c, Cert.ReferenceIdeal.Stages.blended _ _ _ _ _ _ _ _ _ _ _ _ shapeCasts_S64_S1x64 shapeCasts_S_S1x1]
  show blend 100000 64 (W5 m ρ c (Proc.devRef .tc main_v57)) (W5 m ρ c (Proc.devRef .tc main_v66)) (W5 m ρ c (Proc.devRef .tc main_v44_1)) (W5 m ρ c (Proc.devRef .tc main_v65)) = _
  rw [W5_agg2, W5_bg2, W5_zmlp, W5_gate]

end Cert.KernelIdeal.Boundary

end
-- ==== Proof.lean ====
/-
  The five claims for the graph network's forward pass against its jnp reference.

  Both programs compute, from the node features x, the edge lists and the weights,

      a  = Agg(x·Wg1),         z_gnn = Agg(max(a + bg1, 0)·Wg2) + bg2,
      z_mlp = max(x·Wm1 + bm1, 0)·Wm2 + bm2,        out = β·z_gnn + (1 − β)·z_mlp,

  where Agg gathers rows along the source list (with self-loops), scales them by the symmetric degree normalisation
  and scatter-adds them along the destination list, and β is the logistic gate of two scalars. The kernel program
  does the four products, the biases, the positive parts and the blend in three tiled kernels and the aggregations on
  the host; the reference does everything on the host. Over the extended reals a tiled product with a zero
  accumulator and a whole product are the same sum over the contracted coordinate, a change of float format is the
  identity, and the host operations between the kernels are, operation for operation, the reference's: so the two
  results are one function of the arguments, with no use of finiteness.

  The frames of the two kernel programs are the generated frame certificates, the reference's frame is its generated
  run with the result forgotten, and the idealization rewrote nothing. For the value claim the kernel program's run is
  read at the result buffer (KernelRun), the contents of that buffer are walked back through the regions and the host
  stretches to the reference's last stage of the arguments (Boundary, over Region0–2, Payload and RefStages), and the
  reference's generated run ends at that same stage.
-/
import proofs.«112460_j24481313587799_1_alg».proof.Defs
import proofs.«112460_j24481313587799_1_alg».proof.Proof.Gen.Kernel
import proofs.«112460_j24481313587799_1_alg».proof.Proof.Gen.Kernel.Skeleton
import proofs.«112460_j24481313587799_1_alg».proof.Proof.Gen.Kernel.Launch
import proofs.«112460_j24481313587799_1_alg».proof.Proof.Gen.Kernel.Points
import proofs.«112460_j24481313587799_1_alg».proof.Proof.Gen.Kernel.Frame
import proofs.«112460_j24481313587799_1_alg».proof.Proof.Gen.KernelIdeal
import proofs.«112460_j24481313587799_1_alg».proof.Proof.Gen.KernelIdeal.Skeleton
import proofs.«112460_j24481313587799_1_alg».proof.Proof.Gen.KernelIdeal.Launch
import proofs.«112460_j24481313587799_1_alg».proof.Proof.Gen.KernelIdeal.Points
import proofs.«112460_j24481313587799_1_alg».proof.Proof.Gen.KernelIdeal.Frame
import proofs.«112460_j24481313587799_1_alg».proof.Proof.Gen.ReferenceIdeal
import proofs.«112460_j24481313587799_1_alg».proof.Proof.Gen.Pre_finite_inputs
import proofs.«112460_j24481313587799_1_alg».proof.Proof.Gen.ReferenceIdeal.Run
import proofs.«112460_j24481313587799_1_alg».proof.Proof.Gen.ReferenceIdeal.Read
import proofs.«112460_j24481313587799_1_alg».proof.Proof.KernelRun
import proofs.«112460_j24481313587799_1_alg».proof.Proof.Boundary
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result arrays. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Boundary.W6_result m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11⟩ := hagree c
    rw [(h c).1, Cert.ReferenceIdeal.Read.val_main_v83_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
